-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S256x8192 : Shape := ⟨2, ![256, 8192]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x8192_S256x2048_0_0 : ∀ a, (![0, 0] : Fin 2 → Nat) a + S256x2048.size a ≤ S256x8192.size a
  h_S256x2048 : 0 < S256x2048.numel
  inb_S256x8192_S256x2048_0_2048 : ∀ a, (![0, 2048] : Fin 2 → Nat) a + S256x2048.size a ≤ S256x8192.size a
  inb_S256x8192_S256x2048_0_4096 : ∀ a, (![0, 4096] : Fin 2 → Nat) a + S256x2048.size a ≤ S256x8192.size a
  inb_S256x8192_S256x2048_0_6144 : ∀ a, (![0, 6144] : Fin 2 → Nat) a + S256x2048.size a ≤ S256x8192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x2048 : Shape := ⟨2, ![4096, 2048]⟩
abbrev S4096x6144 : Shape := ⟨2, ![4096, 6144]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x6144, .f32⟩
  | .hbm, ⟨3, _⟩ => ⟨S4096x8192, .f32⟩
  | .hbm, ⟨4, _⟩ => ⟨S4096x8192, .f32⟩
  | .hbm, ⟨5, _⟩ => ⟨S4096x4096, .f32⟩
  | .hbm, ⟨6, _⟩ => ⟨S4096x4096, .f32⟩
  | .hbm, ⟨7, _⟩ => ⟨S4096x8192, .f32⟩
  | .hbm, ⟨8, _⟩ => ⟨S4096x8192, .f32⟩
  | .hbm, ⟨9, _⟩ => ⟨S4096x6144, .f32⟩
  | .hbm, ⟨10, _⟩ => ⟨S4096x2048, .f32⟩
  | .hbm, ⟨11, _⟩ => ⟨S4096x8192, .f32⟩
  | .hbm, ⟨12, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev main_v1 : Ref sig .tc := ⟨.hbm, 4, rfl⟩
abbrev main_call1_v0 : Ref sig .tc := ⟨.hbm, 5, rfl⟩
abbrev main_call1_v1 : Ref sig .tc := ⟨.hbm, 6, rfl⟩
abbrev main_v2 : Ref sig .tc := ⟨.hbm, 7, rfl⟩
abbrev main_v3 : Ref sig .tc := ⟨.hbm, 8, rfl⟩
abbrev main_call2_v0 : Ref sig .tc := ⟨.hbm, 9, rfl⟩
abbrev main_call2_v1 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  slices_S4096x8192_S4096x2048_0_6144 : S4096x8192.Slices ![0, 6144] S4096x2048
  slices_S4096x8192_S4096x6144_0_0 : S4096x8192.Slices ![0, 0] S4096x6144
  concatenates_S4096x2048_S4096x6144_S4096x8192_d1 : Shape.Concatenates [S4096x2048, S4096x6144] S4096x8192 1
  slices_S4096x8192_S4096x4096_0_4096 : S4096x8192.Slices ![0, 4096] S4096x4096
  slices_S4096x8192_S4096x4096_0_0 : S4096x8192.Slices ![0, 0] S4096x4096
  concatenates_S4096x4096_S4096x4096_S4096x8192_d1 : Shape.Concatenates [S4096x4096, S4096x4096] S4096x8192 1
  slices_S4096x8192_S4096x6144_0_2048 : S4096x8192.Slices ![0, 2048] S4096x6144
  slices_S4096x8192_S4096x2048_0_0 : S4096x8192.Slices ![0, 0] S4096x2048
  concatenates_S4096x6144_S4096x2048_S4096x8192_d1 : Shape.Concatenates [S4096x6144, S4096x2048] S4096x8192 1

variable [Facts₀]

class Facts : Prop extends Facts₀ where

variable [Facts]
-- ==== Proof.RowQuarters.lean ====
/-
  The function both programs compute. A row of 8192 entries is four quarters of 2048. The entry of the
  result at row r, column c is the maximum of the four entries of row r of the argument that sit at c's
  position inside a quarter: columns c % 2048, c % 2048 + 2048, c % 2048 + 4096, c % 2048 + 6144. So
  the result is the same in all four quarters of a row.

  A column is named by a natural number read modulo 8192, so that "2048 further on, round the end of the
  row" is plain addition and two names are the same column exactly when they agree modulo 8192.

  Also here: a block of 256 whole rows, read through any embedding that keeps the column and shifts the row by
  a constant, is the same function of the block's own entries (the maximum never looks outside a row).
-/
import Idealize.ShloMosaic.PureOps.Ideal
import Idealize.ShloMosaic.Lib.ValueIdx

noncomputable section

namespace Cert.RowQuarters

open Idealize.ShloMosaic Idealize.ShloMosaic.ValueIdx

/-- The whole array's index set: 4096 rows of 8192 columns. -/
abbrev ArrIdx : Type := (⟨2, ![4096, 8192]⟩ : Shape).Idx
/-- A block's index set: 256 rows of 8192 columns. -/
abbrev BlkIdx : Type := (⟨2, ![256, 8192]⟩ : Shape).Idx

/-- The index in `i`'s row at column `n` (read modulo 8192). -/
abbrev col (i : ArrIdx) (n : Nat) : ArrIdx := ix2 (i 0) ⟨n % 8192, Nat.mod_lt _ (by decide)⟩
/-- The same inside a block. -/
abbrev bcol (y : BlkIdx) (n : Nat) : BlkIdx := ix2 (y 0) ⟨n % 8192, Nat.mod_lt _ (by decide)⟩

/-- Two names of one column. -/
theorem col_congr (i : ArrIdx) {n n' : Nat} (h : n % 8192 = n' % 8192) : col i n = col i n' := by
  funext a; match a with | ⟨0, _⟩ => rfl | ⟨1, _⟩ => exact Fin.ext h

/-- An index is in its own row at its own column. -/
theorem eq_col (i : ArrIdx) : i = col i (i 1).val := by
  funext a; match a with
  | ⟨0, _⟩ => rfl
  | ⟨1, _⟩ => exact Fin.ext (Nat.mod_eq_of_lt (idx2_lt1 i)).symm

/-- THE RESULT: at each index the maximum over the four quarters of the row, at the index's position inside a quarter. -/
def rowMax4 (x : ArrIdx → EReal) : ArrIdx → EReal := fun i =>
  max (max (x (col i ((i 1).val % 2048))) (x (col i ((i 1).val % 2048 + 2048))))
    (max (x (col i ((i 1).val % 2048 + 4096))) (x (col i ((i 1).val % 2048 + 6144))))

/-- A block of whole rows computes the same thing from its own entries: if the block `P` is the array `X` read through
    an embedding `e` that keeps columns and moves every row down by `B`, then the maximum over the four quarters of the
    block's row is `rowMax4 X` at the embedded index. -/
theorem block_rowMax4 (X : ArrIdx → EReal) (P : BlkIdx → EReal) (e : BlkIdx → ArrIdx) (B : Nat)
    (hP : ∀ y, P y = X (e y)) (he0 : ∀ y, (e y 0).val = B + (y 0).val) (he1 : ∀ y, (e y 1).val = (y 1).val)
    (y : BlkIdx) :
    max (max (P (bcol y ((y 1).val % 2048))) (P (bcol y ((y 1).val % 2048 + 2048))))
      (max (P (bcol y ((y 1).val % 2048 + 4096))) (P (bcol y ((y 1).val % 2048 + 6144))))
    = rowMax4 X (e y) := by
  have key : ∀ n : Nat, e (bcol y n) = col (e y) n := fun n => by
    funext a; match a with
    | ⟨0, _⟩ => exact Fin.ext ((he0 (bcol y n)).trans (he0 y).symm)
    | ⟨1, _⟩ => exact Fin.ext (he1 (bcol y n))
  unfold rowMax4
  rw [hP, hP, hP, hP, key, key, key, key, he1 y]

end Cert.RowQuarters

end
-- ==== Proof.KernelRows.lean ====
/-
  The kernel's result array. The grid has 16 points; point t works on block row t: rows 256 t … 256 t + 255, all
  8192 columns, of the argument (input window) and of the result (output window). The body cuts the loaded block
  into its four quarters of 2048 columns, takes their entrywise maximum and stores that one value into each of the
  four quarters of the output block. So the output block, at row y and column c, is the maximum of the loaded block's
  row y at the four columns c % 2048 + 2048 k — a function of the block alone, because the maximum never leaves the row.
  Read through the block's place in the array this is the specification `rowMax4` of the argument restricted to block
  row t; the 16 block rows cover the array, so the array ends as `rowMax4` of the argument.
-/
import proofs.«167701_j22883585753527_1_alg».proof.Proof.Gen.KernelIdeal.Value
import proofs.«167701_j22883585753527_1_alg».proof.Proof.RowQuarters
import Idealize.ShloMosaic.Lib.Pipeline.Value
import Idealize.ShloMosaic.Lib.ValueIdx

noncomputable section

namespace Cert.KernelIdeal.Rows

open Cert.KernelIdeal Cert.KernelIdeal.Gen Cert.RowQuarters
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The whole-block load starts at the block's corner. -/
theorem corner : (![0, 0] : Fin 2 → Nat) = fun _ => 0 := funext fun a => by fin_cases a <;> rfl

/-- WHAT THE BODY LEAVES in the output block, from the loaded block `P`: at each entry the maximum over the four quarters
    of `P`'s row, at the entry's position inside a quarter. (The four stores tile the block and each writes the same value, so together they leave
    one function of the block index; here its four read positions are named as columns of the row.) -/
theorem body_block (P : Vec Ideal S256x8192 .f32) (y : S256x8192.Idx) :
    out0_1 P y = max (max (P (bcol y ((y 1).val % 2048))) (P (bcol y ((y 1).val % 2048 + 2048))))
      (max (P (bcol y ((y 1).val % 2048 + 4096))) (P (bcol y ((y 1).val % 2048 + 6144)))) := by
  have h1 : (y 1).val < 8192 := idx2_lt1 y
  unfold out0_1
  rw [View.ld_unit_zero (S := S256x8192) corner, Value.canon1_eq]
  show max (max (P (Value.ix1_0 y)) (P (Value.ix1_1 y))) (max (P (Value.ix1_2 y)) (P (Value.ix1_3 y))) = _
  have e0 : Value.ix1_0 y = bcol y ((y 1).val % 2048) := by
    funext a; match a with
    | ⟨0, _⟩ => rfl
    | ⟨1, _⟩ => exact Fin.ext (by show (y 1).val % 2048 = ((y 1).val % 2048) % 8192; omega)
  have e1 : Value.ix1_1 y = bcol y ((y 1).val % 2048 + 2048) := by
    funext a; match a with
    | ⟨0, _⟩ => rfl
    | ⟨1, _⟩ => exact Fin.ext (by show (y 1).val % 2048 + 2048 = ((y 1).val % 2048 + 2048) % 8192; omega)
  have e2 : Value.ix1_2 y = bcol y ((y 1).val % 2048 + 4096) := by
    funext a; match a with
    | ⟨0, _⟩ => rfl
    | ⟨1, _⟩ => exact Fin.ext (by show (y 1).val % 2048 + 4096 = ((y 1).val % 2048 + 4096) % 8192; omega)
  have e3 : Value.ix1_3 y = bcol y ((y 1).val % 2048 + 6144) := by
    funext a; match a with
    | ⟨0, _⟩ => rfl
    | ⟨1, _⟩ => exact Fin.ext (by show (y 1).val % 2048 + 6144 = ((y 1).val % 2048 + 6144) % 8192; omega)
  rw [e0, e1, e2, e3]

/-- At every grid point both windows sit on the same block row and on the one column block; there are 16 block rows. -/
theorem block_rows : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every block row is some point's. -/
theorem every_block_row : ∀ q : Fin 16, ∃ t : Fin cfg0.N, win0_1.index t = ![q.val, 0] :=
  (by decide +kernel : ∀ q : Fin 16, ∃ t : Fin grid0.N, win0_1.index t = ![q.val, 0])

/-- WHAT POINT `t` WRITES BACK is block row `t` of `rowMax4` of the argument array. -/
theorem flushed_eq (c : Dev nD) (t : Fin cfg0.N) :
    (dats m 0 c).flushed 1 t = ((cfg0.win 1).blk t).view.read (Elt Ideal) (rowMax4 (V m c main_arg0)) := by
  rw [Value.flushed1]
  obtain ⟨e0, e1, e2, e3⟩ := block_rows t
  funext j
  show out0_1 (iblk m c 0 t) j = rowMax4 (V m c main_arg0) (((cfg0.win 1).blk t).view.emb j)
  refine (body_block (iblk m c 0 t) j).trans ?_
  refine (block_rowMax4 (V m c main_arg0) (iblk m c 0 t) (((cfg0.win 0).blk t).view.emb) (win0_1.index t (0 : Fin 2) * 256)
    (fun y => rfl) (fun y => ?_) (fun y => ?_) j).trans ?_
  · show win0_0.index t (0 : Fin 2) * 256 + 1 * (y 0).val = win0_1.index t (0 : Fin 2) * 256 + (y 0).val; omega
  · show win0_0.index t (1 : Fin 2) * 8192 + 1 * (y 1).val = (y 1).val; omega
  · -- the output block sits where the input block does: the two windows have the same index map
    rfl

/-- An index of the array is in point `t`'s output block iff each coordinate is in the block's range on its axis. -/
theorem mem_block (t : Fin cfg0.N) (i : S4096x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- The block rows cover the array: row `r` lies in block row `r / 256`. -/
theorem covered (i : S4096x8192.Idx) : ∃ t : Fin cfg0.N, (cfg0.win 1).flush t = true ∧ i ∈ ((cfg0.win 1).blk t).view.set := by
  have hi0 : (i 0).val < 4096 := idx2_lt0 i
  have hi1 : (i 1).val < 8192 := idx2_lt1 i
  obtain ⟨t, ht⟩ := every_block_row ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

/-- THE RESULT ARRAY after the run is `rowMax4` of the argument array. -/
theorem final (c : Dev nD) : (dats m 0 c).arrAt 1 cfg0.N = rowMax4 (m ((c : Thread nD τ).loc main_arg0)) :=
  (dats m 0 c).arrAt_eq_of_cover 1 (rowMax4 (V m c main_arg0)) (fun t _ => flushed_eq m c t) covered

/-- The kernel's run, read: the result at `rowMax4` of the argument, the argument unchanged. -/
theorem run : θ_run defs (onTc (τ := τ) (main (F := Ideal))) ⟨m, fun _ => 0, ρ⟩ fun r => ∀ c : Dev nD,
      r.2.mem ((c : Thread nD τ).loc main_v0) = rowMax4 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Rows

end
-- ==== Proof.LibMaxCyclic.lean ====
/-
  The maximum of four elements of a linear order does not depend on the order or grouping in which it is
  taken. Stated here for the four left-nested chains that start at each of the four elements and then run
  backwards round the cycle a → d → c → b → a: each equals the balanced pairing max (max a b) (max c d).
  Only commutativity and associativity of max are used, so nothing is asked of the elements (no finiteness).
-/
import Mathlib.Order.MinMax

namespace MaxCyclic

variable {α : Type*} [LinearOrder α] (a b c d : α)

/-- The chain starting at `a`: a, then d, c, b. -/
theorem chain_from_a : max (max (max a d) c) b = max (max a b) (max c d) := by
  simp only [max_comm, max_assoc, max_left_comm]

/-- The chain starting at `b`: b, then a, d, c. -/
theorem chain_from_b : max (max (max b a) d) c = max (max a b) (max c d) := by
  simp only [max_comm, max_assoc, max_left_comm]

/-- The chain starting at `c`: c, then b, a, d. -/
theorem chain_from_c : max (max (max c b) a) d = max (max a b) (max c d) := by
  simp only [max_comm, max_assoc, max_left_comm]

/-- The chain starting at `d`: d, then c, b, a. -/
theorem chain_from_d : max (max (max d c) b) a = max (max a b) (max c d) := by
  simp only [max_comm, max_assoc, max_left_comm]

end MaxCyclic
-- ==== Proof.RefRolls.lean ====
/-
  The reference at an index. It forms three copies of the argument with every row rotated to the right by
  2048, 4096 and 6144 columns — each written as the row's tail laid in front of its head — and takes the
  maximum of the argument and the three copies, one after the other.

  A row rotated right by s, read at column c, is the row at column c - s round the end, that is at
  c + (8192 - s) modulo 8192. So at column c the reference takes the maximum of the row's entries at
  c, c + 6144, c + 4096, c + 2048 (modulo 8192): whichever quarter c lies in, these are the four entries at
  c's position inside a quarter, met in a cyclic order that depends on the quarter; the maximum does not
  depend on the order.
-/
import proofs.«167701_j22883585753527_1_alg».proof.Proof.Gen.ReferenceIdeal.Read
import proofs.«167701_j22883585753527_1_alg».proof.Proof.RowQuarters
import proofs.«167701_j22883585753527_1_alg».proof.Proof.LibMaxCyclic
import Idealize.ShloMosaic.Lib.Pipeline.Value
import Idealize.ShloMosaic.Lib.ValueIdx

noncomputable section

namespace Cert.ReferenceIdeal.Rolls

open Cert.ReferenceIdeal Cert.ReferenceIdeal.Read Cert.RowQuarters
open Idealize.ShloMosaic Idealize.ShloMosaic.ValueIdx

variable {F : FTy → Type} [FloatOps F]

/-- The copy rotated right by 2048 (the last 2048 columns in front of the first 6144): at column c it is the argument 6144 columns further on round the row. -/
theorem rolled2048_apply (x0 : (⟨S4096x8192, .f32⟩ : BufTy).Contents (Elt F)) (i : S4096x8192.Idx) :
    val_main_v0 (F := F) x0 i = x0 (col i ((i 1).val + 6144)) := by
  have h1 : (i 1).val < 8192 := idx2_lt1 i
  unfold val_main_v0
  by_cases h : (i 1).val < 2048
  · -- in the first piece: the tail of the row, which starts at column 6144
    refine (concatenate_pair_apply_left (s₁ := S4096x2048) (s₂ := S4096x6144) _ _ _ _ i rfl (ix2 (n0 := 4096) (n1 := 2048) (i 0) ⟨(i 1).val, h⟩) (fun b => ?_)).trans ?_
    · match b with | ⟨0, _⟩ => rfl | ⟨1, _⟩ => rfl
    · rw [val_main_call0_v0_apply]
      congr 1; funext a; match a with
      | ⟨0, _⟩ => rfl
      | ⟨1, _⟩ => exact Fin.ext (by show 6144 + (i 1).val = ((i 1).val + 6144) % 8192; omega)
  · -- in the second piece: the head of the row, 2048 columns later
    refine (concatenate_pair_apply_right (s₁ := S4096x2048) (s₂ := S4096x6144) _ _ _ _ i rfl rfl (ix2 (n0 := 4096) (n1 := 6144) (i 0) ⟨(i 1).val - 2048, by omega⟩) (fun b hb => ?_) ?_).trans ?_
    · match b with | ⟨0, _⟩ => rfl | ⟨1, _⟩ => exact absurd rfl hb
    · show (i 1).val - 2048 + 2048 = (i 1).val; omega
    · rw [val_main_call0_v1_apply]
      congr 1; funext a; match a with
      | ⟨0, _⟩ => rfl
      | ⟨1, _⟩ => exact Fin.ext (by show (i 1).val - 2048 = ((i 1).val + 6144) % 8192; omega)

/-- The copy rotated right by 4096 (the two halves of the row exchanged): at column c it is the argument 4096 columns further on round the row. -/
theorem rolled4096_apply (x0 : (⟨S4096x8192, .f32⟩ : BufTy).Contents (Elt F)) (i : S4096x8192.Idx) :
    val_main_v2 (F := F) x0 i = x0 (col i ((i 1).val + 4096)) := by
  have h1 : (i 1).val < 8192 := idx2_lt1 i
  unfold val_main_v2
  by_cases h : (i 1).val < 4096
  · -- in the first piece: the tail of the row, which starts at column 4096
    refine (concatenate_pair_apply_left (s₁ := S4096x4096) (s₂ := S4096x4096) _ _ _ _ i rfl (ix2 (n0 := 4096) (n1 := 4096) (i 0) ⟨(i 1).val, h⟩) (fun b => ?_)).trans ?_
    · match b with | ⟨0, _⟩ => rfl | ⟨1, _⟩ => rfl
    · rw [val_main_call1_v0_apply]
      congr 1; funext a; match a with
      | ⟨0, _⟩ => rfl
      | ⟨1, _⟩ => exact Fin.ext (by show 4096 + (i 1).val = ((i 1).val + 4096) % 8192; omega)
  · -- in the second piece: the head of the row, 4096 columns later
    refine (concatenate_pair_apply_right (s₁ := S4096x4096) (s₂ := S4096x4096) _ _ _ _ i rfl rfl (ix2 (n0 := 4096) (n1 := 4096) (i 0) ⟨(i 1).val - 4096, by omega⟩) (fun b hb => ?_) ?_).trans ?_
    · match b with | ⟨0, _⟩ => rfl | ⟨1, _⟩ => exact absurd rfl hb
    · show (i 1).val - 4096 + 4096 = (i 1).val; omega
    · rw [val_main_call1_v1_apply]
      congr 1; funext a; match a with
      | ⟨0, _⟩ => rfl
      | ⟨1, _⟩ => exact Fin.ext (by show (i 1).val - 4096 = ((i 1).val + 4096) % 8192; omega)

/-- The copy rotated right by 6144 (the last 6144 columns in front of the first 2048): at column c it is the argument 2048 columns further on round the row. -/
theorem rolled6144_apply (x0 : (⟨S4096x8192, .f32⟩ : BufTy).Contents (Elt F)) (i : S4096x8192.Idx) :
    val_main_v4 (F := F) x0 i = x0 (col i ((i 1).val + 2048)) := by
  have h1 : (i 1).val < 8192 := idx2_lt1 i
  unfold val_main_v4
  by_cases h : (i 1).val < 6144
  · -- in the first piece: the tail of the row, which starts at column 2048
    refine (concatenate_pair_apply_left (s₁ := S4096x6144) (s₂ := S4096x2048) _ _ _ _ i rfl (ix2 (n0 := 4096) (n1 := 6144) (i 0) ⟨(i 1).val, h⟩) (fun b => ?_)).trans ?_
    · match b with | ⟨0, _⟩ => rfl | ⟨1, _⟩ => rfl
    · rw [val_main_call2_v0_apply]
      congr 1; funext a; match a with
      | ⟨0, _⟩ => rfl
      | ⟨1, _⟩ => exact Fin.ext (by show 2048 + (i 1).val = ((i 1).val + 2048) % 8192; omega)
  · -- in the second piece: the head of the row, 6144 columns later
    refine (concatenate_pair_apply_right (s₁ := S4096x6144) (s₂ := S4096x2048) _ _ _ _ i rfl rfl (ix2 (n0 := 4096) (n1 := 2048) (i 0) ⟨(i 1).val - 6144, by omega⟩) (fun b hb => ?_) ?_).trans ?_
    · match b with | ⟨0, _⟩ => rfl | ⟨1, _⟩ => exact absurd rfl hb
    · show (i 1).val - 6144 + 6144 = (i 1).val; omega
    · rw [val_main_call2_v1_apply]
      congr 1; funext a; match a with
      | ⟨0, _⟩ => rfl
      | ⟨1, _⟩ => exact Fin.ext (by show (i 1).val - 6144 = ((i 1).val + 2048) % 8192; omega)

/-- THE REFERENCE'S RESULT is the maximum over the four quarters of the row: by the quarter the column lies in. -/
theorem result_eq (x0 : (⟨S4096x8192, .f32⟩ : BufTy).Contents (Elt Ideal)) :
    val_main_v5 (F := Ideal) x0 = rowMax4 x0 := by
  funext i
  have h1 : (i 1).val < 8192 := idx2_lt1 i
  have hi : x0 i = x0 (col i (i 1).val) := congrArg x0 (eq_col i)
  rw [val_main_v5_apply, val_main_v3_apply, val_main_v1_apply, rolled2048_apply, rolled4096_apply, rolled6144_apply, hi]
  simp only [Ideal.maximumf_def]
  unfold rowMax4
  rcases (by omega : (i 1).val < 2048 ∨ (2048 ≤ (i 1).val ∧ (i 1).val < 4096) ∨ (4096 ≤ (i 1).val ∧ (i 1).val < 6144) ∨ 6144 ≤ (i 1).val)
    with h | h | h | h
  · -- first quarter: the entries are met in the order 0, 3, 2, 1
    rw [col_congr i (show (i 1).val % 8192 = ((i 1).val % 2048) % 8192 by omega),
      col_congr i (show ((i 1).val + 6144) % 8192 = ((i 1).val % 2048 + 6144) % 8192 by omega),
      col_congr i (show ((i 1).val + 4096) % 8192 = ((i 1).val % 2048 + 4096) % 8192 by omega),
      col_congr i (show ((i 1).val + 2048) % 8192 = ((i 1).val % 2048 + 2048) % 8192 by omega)]
    exact MaxCyclic.chain_from_a _ _ _ _
  · -- second quarter: 1, 0, 3, 2
    rw [col_congr i (show (i 1).val % 8192 = ((i 1).val % 2048 + 2048) % 8192 by omega),
      col_congr i (show ((i 1).val + 6144) % 8192 = ((i 1).val % 2048) % 8192 by omega),
      col_congr i (show ((i 1).val + 4096) % 8192 = ((i 1).val % 2048 + 6144) % 8192 by omega),
      col_congr i (show ((i 1).val + 2048) % 8192 = ((i 1).val % 2048 + 4096) % 8192 by omega)]
    exact MaxCyclic.chain_from_b _ _ _ _
  · -- third quarter: 2, 1, 0, 3
    rw [col_congr i (show (i 1).val % 8192 = ((i 1).val % 2048 + 4096) % 8192 by omega),
      col_congr i (show ((i 1).val + 6144) % 8192 = ((i 1).val % 2048 + 2048) % 8192 by omega),
      col_congr i (show ((i 1).val + 4096) % 8192 = ((i 1).val % 2048) % 8192 by omega),
      col_congr i (show ((i 1).val + 2048) % 8192 = ((i 1).val % 2048 + 6144) % 8192 by omega)]
    exact MaxCyclic.chain_from_c _ _ _ _
  · -- fourth quarter: 3, 2, 1, 0
    rw [col_congr i (show (i 1).val % 8192 = ((i 1).val % 2048 + 6144) % 8192 by omega),
      col_congr i (show ((i 1).val + 6144) % 8192 = ((i 1).val % 2048 + 4096) % 8192 by omega),
      col_congr i (show ((i 1).val + 4096) % 8192 = ((i 1).val % 2048 + 2048) % 8192 by omega),
      col_congr i (show ((i 1).val + 2048) % 8192 = ((i 1).val % 2048) % 8192 by omega)]
    exact MaxCyclic.chain_from_d _ _ _ _

end Cert.ReferenceIdeal.Rolls

end
-- ==== Proof.lean ====
/-
  Both programs take one array of 4096 rows by 8192 columns and return an array of the same shape.

  The reference takes the entrywise maximum of the argument and of its three copies with every row rotated to the
  right by 2048, 4096 and 6144 columns. At row r, column c that is the maximum of row r's entries at columns
  c, c - 2048, c - 4096, c - 6144 taken round the end of the row — the four entries of the row that sit at c's position
  inside a quarter of 2048 columns.

  The kernel works on 16 blocks of 256 whole rows. For each it cuts the block into its four quarters of 2048 columns,
  takes their entrywise maximum once, and writes that one value into all four quarters of the output block.

  So both results are, at row r and column c, the maximum of the argument's row r at the columns c % 2048 + 2048 k,
  k = 0, 1, 2, 3 (`RowQuarters.rowMax4`). The only law between the two texts is that a maximum of four elements of a linear
  order does not depend on the order or grouping in which it is taken; this holds of all extended reals, so the
  precondition (finite inputs) is never opened.

  The parts: `RowQuarters` — the function, and that a block of whole rows computes it from its own entries;
  `RefRolls` — each rotated copy read at an index, and the reference's chain of maxima in each quarter;
  `KernelRows` — what the body leaves in a block, each grid point's block of the result, the cover by block rows;
  `LibMaxCyclic` — the maximum of four in the four cyclic orders. The three frames are the generated frame runs
  (the reference's its generated run with the result dropped), and the idealization rewrote nothing.
-/
import proofs.«167701_j22883585753527_1_alg».proof.Defs
import proofs.«167701_j22883585753527_1_alg».proof.Proof.Gen.Kernel
import proofs.«167701_j22883585753527_1_alg».proof.Proof.Gen.Kernel.Frame
import proofs.«167701_j22883585753527_1_alg».proof.Proof.Gen.KernelIdeal
import proofs.«167701_j22883585753527_1_alg».proof.Proof.Gen.KernelIdeal.Frame
import proofs.«167701_j22883585753527_1_alg».proof.Proof.Gen.KernelIdeal.Value
import proofs.«167701_j22883585753527_1_alg».proof.Proof.Gen.ReferenceIdeal
import proofs.«167701_j22883585753527_1_alg».proof.Proof.Gen.ReferenceIdeal.Run
import proofs.«167701_j22883585753527_1_alg».proof.Proof.Gen.ReferenceIdeal.Read
import proofs.«167701_j22883585753527_1_alg».proof.Proof.Gen.Pre_finite_inputs
import proofs.«167701_j22883585753527_1_alg».proof.Proof.KernelRows
import proofs.«167701_j22883585753527_1_alg».proof.Proof.RefRolls

noncomputable section

namespace Cert.Proof

open Idealize.ShloMosaic Idealize.SL.Sem

/-- The kernel as printed runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From the same argument array both programs end with the maximum over the four quarters of each row: the kernel block row
    by block row, the reference through its three rotated copies. -/
theorem algebraic : Cert.algebraic_KernelIdeal_ReferenceIdeal := by
  intro m ρ m' ρ' _ hagree
  refine ⟨fun c => Cert.RowQuarters.rowMax4 (m ((c.tc : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, hagree c]
  exact Cert.ReferenceIdeal.Rolls.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
